-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S500000x172 : Shape := ⟨2, ![500000, 172]⟩
abbrev S1000000x100 : Shape := ⟨2, ![1000000, 100]⟩
abbrev S1000000 : Shape := ⟨1, ![1000000]⟩
abbrev S100 : Shape := ⟨1, ![100]⟩
abbrev S472x128 : Shape := ⟨2, ![472, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S500000x172 : S_.BroadcastsInDim S500000x172 (![] : Fin 0 → Fin S500000x172.rank)
  reducesTo_S500000x172_S_d0_1 : S500000x172.ReducesTo [0, 1] S_
  bcast_S_S1000000x100 : S_.BroadcastsInDim S1000000x100 (![] : Fin 0 → Fin S1000000x100.rank)
  reducesTo_S1000000x100_S_d0_1 : S1000000x100.ReducesTo [0, 1] S_
  bcast_S_S1000000 : S_.BroadcastsInDim S1000000 (![] : Fin 0 → Fin S1000000.rank)
  reducesTo_S1000000_S_d0 : S1000000.ReducesTo [0] S_
  bcast_S_S100 : S_.BroadcastsInDim S100 (![] : Fin 0 → Fin S100.rank)
  reducesTo_S100_S_d0 : S100.ReducesTo [0] S_
  bcast_S_S472x128 : S_.BroadcastsInDim S472x128 (![] : Fin 0 → Fin S472x128.rank)
  reducesTo_S472x128_S_d0_1 : S472x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S100 .f32) (main_arg7 : FVec F S100 .f32) (main_arg8 : FVec F S472x128 .f32) (main_arg9 : FVec F S128 .f32) (main_arg10 : FVec F S128x1 .f32) (main_arg11 : FVec F S1 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S100 .f32 := Host.absf main_arg6
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100 .f32 := Host.absf main_arg7
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S472x128 .f32 := Host.absf main_arg8
  let main_cst_10 : FVec F S_ .f32 := constant S_ .f32 0x7F800000#32
  let main_v30 : FVec F S472x128 .f32 := broadcastInDim S472x128 ![] bcast_S_S472x128 main_cst_10
  let main_v31 : IVec S472x128 1 := cmpf .olt main_v29 main_v30
  let main_c_11 : IVec S_ 1 := constantI S_ 1 1#1
  let main_v32 : IVec S_ 1 := (fun x v => Host.reduce IntOp.andi x v reducesTo_S472x128_S_d0_1 h_S_) main_v31 main_c_11
  let main_v33 : IVec S_ 1 := andi main_v28 main_v32
  fn_part2 (F := F) main_arg9 main_arg10 main_arg11 main_v33

def fn {F : FTy → Type} [FloatOps F] (main_arg0 : IVec S500000 32) (main_arg1 : IVec S500000 32) (main_arg2 : FVec F S500000 .f32) (main_arg3 : FVec F S500000x172 .f32) (main_arg4 : FVec F S1000000x100 .f32) (main_arg5 : FVec F S1000000 .f32) (main_arg6 : FVec F S100 .f32) (main_arg7 : FVec F S100 .f32) (main_arg8 : FVec F S472x128 .f32) (main_arg9 : FVec F S128 .f32) (main_arg10 : FVec F S128x1 .f32) (main_arg11 : FVec F S1 .f32) : IVec S_ 1 :=
  let main_v0 : FVec F S500000 .f32 := Host.absf main_arg2
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S500000x172 .f32 := Host.absf main_arg3
  let main_cst_0 : FVec F S_ .f32 := constant S_ .f32 0x7F800000#32
  let main_v5 : FVec F S500000x172 .f32 := broadcastInDim S500000x172 ![] bcast_S_S500000x172 main_cst_0
  let main_v6 : IVec S500000x172 1 := cmpf .olt main_v4 main_v5
  let main_c_1 : IVec S_ 1 := constantI S_ 1 1#1
  let main_v7 : IVec S_ 1 := (fun x v => Host.reduce IntOp.andi x v reducesTo_S500000x172_S_d0_1 h_S_) main_v6 main_c_1
  let main_v8 : IVec S_ 1 := andi main_v3 main_v7
  let main_v9 : FVec F S1000000x100 .f32 := Host.absf main_arg4
  let main_cst_2 : FVec F S_ .f32 := constant S_ .f32 0x7F800000#32
  let main_v10 : FVec F S1000000x100 .f32 := broadcastInDim S1000000x100 ![] bcast_S_S1000000x100 main_cst_2
  let main_v11 : IVec S1000000x100 1 := cmpf .olt main_v9 main_v10
  let main_c_3 : IVec S_ 1 := constantI S_ 1 1#1
  let main_v12 : IVec S_ 1 := (fun x v => Host.reduce IntOp.andi x v reducesTo_S1000000x100_S_d0_1 h_S_) main_v11 main_c_3
  let main_v13 : IVec S_ 1 := andi main_v8 main_v12
  let main_v14 : FVec F S1000000 .f32 := Host.absf main_arg5
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg6 main_arg7 main_arg8 main_arg9 main_arg10 main_arg11 main_v13 main_v16
-- ==== Kernel.lean ====
abbrev S500000 : Shape := ⟨1, ![500000]⟩
abbrev S500000x172 : Shape := ⟨2, ![500000, 172]⟩
abbrev S1000000x100 : Shape := ⟨2, ![1000000, 100]⟩
abbrev S1000000 : Shape := ⟨1, ![1000000]⟩
abbrev S100 : Shape := ⟨1, ![100]⟩
abbrev S472x128 : Shape := ⟨2, ![472, 128]⟩
abbrev S128 : Shape := ⟨1, ![128]⟩
abbrev S128x1 : Shape := ⟨2, ![128, 1]⟩
abbrev S1 : Shape := ⟨1, ![1]⟩
abbrev S_ : Shape := ⟨0, ![]⟩
abbrev S500000x1 : Shape := ⟨2, ![500000, 1]⟩
abbrev S500000x100 : Shape := ⟨2, ![500000, 100]⟩
abbrev S3808x100 : Shape := ⟨2, ![3808, 100]⟩
abbrev S503808x100 : Shape := ⟨2, ![503808, 100]⟩
abbrev S3808 : Shape := ⟨1, ![3808]⟩
abbrev S503808 : Shape := ⟨1, ![503808]⟩
abbrev S3808x172 : Shape := ⟨2, ![3808, 172]⟩
abbrev S503808x172 : Shape := ⟨2, ![503808, 172]⟩
abbrev S100x128 : Shape := ⟨2, ![100, 128]⟩
abbrev S172x128 : Shape := ⟨2, ![172, 128]⟩
abbrev S1x100 : Shape := ⟨2, ![1, 100]⟩
abbrev S1x128 : Shape := ⟨2, ![1, 128]⟩
abbrev S1x1 : Shape := ⟨2, ![1, 1]⟩
abbrev S503808x1 : Shape := ⟨2, ![503808, 1]⟩
abbrev S4096x100 : Shape := ⟨2, ![4096, 100]⟩
abbrev S4096 : Shape := ⟨1, ![4096]⟩
abbrev S4096x172 : Shape := ⟨2, ![4096, 172]⟩
abbrev S4096x1 : Shape := ⟨2, ![4096, 1]⟩
abbrev S4096x128 : Shape := ⟨2, ![4096, 128]⟩

abbrev nBuf : Space → Nat
  | .hbm => 62
  | .vmem => 19
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .f32⟩
  | .hbm, ⟨3, _⟩ => ⟨S500000x172, .f32⟩
  | .hbm, ⟨4, _⟩ => ⟨S1000000x100, .f32⟩
  | .hbm, ⟨5, _⟩ => ⟨S1000000, .f32⟩
  | .hbm, ⟨6, _⟩ => ⟨S100, .f32⟩
  | .hbm, ⟨7, _⟩ => ⟨S100, .f32⟩
  | .hbm, ⟨8, _⟩ => ⟨S472x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000, .f32⟩
  | .hbm, ⟨21, _⟩ => ⟨S500000, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x100, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x100, .f32⟩
  | .hbm, ⟨40, _⟩ => ⟨S_, .f32⟩
  | .hbm, ⟨41, _⟩ => ⟨S3808x100, .f32⟩
  | .hbm, ⟨42, _⟩ => ⟨S503808x100, .f32⟩
  | .hbm, ⟨43, _⟩ => ⟨S_, .f32⟩
  | .hbm, ⟨44, _⟩ => ⟨S3808x100, .f32⟩
  | .hbm, ⟨45, _⟩ => ⟨S503808x100, .f32⟩
  | .hbm, ⟨46, _⟩ => ⟨S_, .f32⟩
  | .hbm, ⟨47, _⟩ => ⟨S3808, .f32⟩
  | .hbm, ⟨48, _⟩ => ⟨S503808, .f32⟩
  | .hbm, ⟨49, _⟩ => ⟨S_, .f32⟩
  | .hbm, ⟨50, _⟩ => ⟨S3808x172, .f32⟩
  | .hbm, ⟨51, _⟩ => ⟨S503808x172, .f32⟩
  | .hbm, ⟨52, _⟩ => ⟨S100x128, .f32⟩
  | .hbm, ⟨53, _⟩ => ⟨S100x128, .f32⟩
  | .hbm, ⟨54, _⟩ => ⟨S100x128, .f32⟩
  | .hbm, ⟨55, _⟩ => ⟨S172x128, .f32⟩
  | .hbm, ⟨56, _⟩ => ⟨S1x100, .f32⟩
  | .hbm, ⟨57, _⟩ => ⟨S1x100, .f32⟩
  | .hbm, ⟨58, _⟩ => ⟨S1x128, .f32⟩
  | .hbm, ⟨59, _⟩ => ⟨S1x1, .f32⟩
  | .hbm, ⟨60, _⟩ => ⟨S503808x1, .f32⟩
  | .hbm, ⟨61, _⟩ => ⟨S500000x1, .f32⟩
  | .local _ .vmem, ⟨0, _⟩ => ⟨S4096x100, .f32⟩
  | .local _ .vmem, ⟨1, _⟩ => ⟨S4096x100, .f32⟩
  | .local _ .vmem, ⟨2, _⟩ => ⟨S4096x100, .f32⟩
  | .local _ .vmem, ⟨3, _⟩ => ⟨S4096x100, .f32⟩
  | .local _ .vmem, ⟨4, _⟩ => ⟨S4096, .f32⟩
  | .local _ .vmem, ⟨5, _⟩ => ⟨S4096, .f32⟩
  | .local _ .vmem, ⟨6, _⟩ => ⟨S4096x172, .f32⟩
  | .local _ .vmem, ⟨7, _⟩ => ⟨S4096x172, .f32⟩
  | .local _ .vmem, ⟨8, _⟩ => ⟨S1x100, .f32⟩
  | .local _ .vmem, ⟨9, _⟩ => ⟨S1x100, .f32⟩
  | .local _ .vmem, ⟨10, _⟩ => ⟨S100x128, .f32⟩
  | .local _ .vmem, ⟨11, _⟩ => ⟨S100x128, .f32⟩
  | .local _ .vmem, ⟨12, _⟩ => ⟨S100x128, .f32⟩
  | .local _ .vmem, ⟨13, _⟩ => ⟨S172x128, .f32⟩
  | .local _ .vmem, ⟨14, _⟩ => ⟨S1x128, .f32⟩
  | .local _ .vmem, ⟨15, _⟩ => ⟨S128x1, .f32⟩
  | .local _ .vmem, ⟨16, _⟩ => ⟨S1x1, .f32⟩
  | .local _ .vmem, ⟨17, _⟩ => ⟨S4096x1, .f32⟩
  | .local _ .vmem, ⟨18, _⟩ => ⟨S4096x1, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x172 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S172x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S3808x100 : S_.BroadcastsInDim S3808x100 (![] : Fin 0 → Fin S3808x100.rank)
  concatenates_S500000x100_S3808x100_S503808x100_d0 : Shape.Concatenates [S500000x100, S3808x100] S503808x100 0
  bcast_S_S3808 : S_.BroadcastsInDim S3808 (![] : Fin 0 → Fin S3808.rank)
  concatenates_S500000_S3808_S503808_d0 : Shape.Concatenates [S500000, S3808] S503808 0
  bcast_S_S3808x172 : S_.BroadcastsInDim S3808x172 (![] : Fin 0 → Fin S3808x172.rank)
  concatenates_S500000x172_S3808x172_S503808x172_d0 : Shape.Concatenates [S500000x172, S3808x172] S503808x172 0
  slices_S472x128_S100x128_0_0 : S472x128.Slices ![0, 0] S100x128
  slices_S472x128_S100x128_100_0 : S472x128.Slices ![100, 0] S100x128
  slices_S472x128_S100x128_200_0 : S472x128.Slices ![200, 0] S100x128
  slices_S472x128_S172x128_300_0 : S472x128.Slices ![300, 0] S172x128
  shapeCasts_S100_S1x100 : S100.ShapeCasts S1x100
  shapeCasts_S128_S1x128 : S128.ShapeCasts S1x128
  shapeCasts_S1_S1x1 : S1.ShapeCasts S1x1
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S4096x1_S4096x100 : S4096x1.Broadcasts S4096x100
  broadcasts_S1x100_S4096x100 : S1x100.Broadcasts S4096x100
  inb_S4096x100_S4096x100_0_0 : ∀ a, (![0, 0] : Fin 2 → Nat) a + S4096x100.size a ≤ S4096x100.size a
  h_S4096x100 : 0 < S4096x100.numel
  shapeCasts_S4096x100_S4096x100 : S4096x100.ShapeCasts S4096x100
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S4096x172_S4096x172_0_0 : ∀ a, (![0, 0] : Fin 2 → Nat) a + S4096x172.size a ≤ S4096x172.size a
  h_S4096x172 : 0 < S4096x172.numel
  shapeCasts_S4096x172_S4096x172 : S4096x172.ShapeCasts S4096x172
  inb_S172x128_S172x128_0_0 : ∀ a, (![0, 0] : Fin 2 → Nat) a + S172x128.size a ≤ S172x128.size a
  h_S172x128 : 0 < S172x128.numel
  shapeCasts_S172x128_S172x128 : S172x128.ShapeCasts S172x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S503808x1_S500000x1_0_0 : S503808x1.Slices ![0, 0] S500000x1
  gather_S1000000_S500000x1_S500000_n_0_n_n_0_1_1_wf : GatherDims.WF S1000000 S500000x1 S500000 [] [0] [] [0] [] 1 ![1]
  gather_S1000000x100_S500000x1_S500000x100_1_0_n_n_0_1_1100_wf : GatherDims.WF S1000000x100 S500000x1 S500000x100 [1] [0] [] [0] [] 1 ![1, 100]
  dot_S4096x100_S100x128_S4096x128_1_0_0_1_n_n_wf : DotDims.WF S4096x100 S100x128 S4096x128 [1] [0] [0] [1] [] []
  dot_S4096x172_S172x128_S4096x128_1_0_0_1_n_n_wf : DotDims.WF S4096x172 S172x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x100.size a ≤ S503808x100.size a
  hwx0_0 : ∀ i : grid0.Coords, EltTy.bits .f32 = 32 ∨ (Rect.block (s := S503808x100) S4096x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x100.size a ≤ S503808x100.size a
  hwx0_1 : ∀ i : grid0.Coords, EltTy.bits .f32 = 32 ∨ (Rect.block (s := S503808x100) S4096x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S503808.size a
  hwx0_2 : ∀ i : grid0.Coords, EltTy.bits .f32 = 32 ∨ (Rect.block (s := S503808) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x172.size a ≤ S503808x172.size a
  hwx0_3 : ∀ i : grid0.Coords, EltTy.bits .f32 = 32 ∨ (Rect.block (s := S503808x172) S4096x172.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x128.size a ≤ S100x128.size a
  hwx0_6 : ∀ i : grid0.Coords, EltTy.bits .f32 = 32 ∨ (Rect.block (s := S100x128) S100x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x128.size a ≤ S100x128.size a
  hwx0_7 : ∀ i : grid0.Coords, EltTy.bits .f32 = 32 ∨ (Rect.block (s := S100x128) S100x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100x128.size a ≤ S100x128.size a
  hwx0_8 : ∀ i : grid0.Coords, EltTy.bits .f32 = 32 ∨ (Rect.block (s := S100x128) S100x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S172x128.size a ≤ S172x128.size a
  hwx0_9 : ∀ i : grid0.Coords, EltTy.bits .f32 = 32 ∨ (Rect.block (s := S172x128) S172x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x1.size a ≤ S503808x1.size a
  hwx0_13 : ∀ i : grid0.Coords, EltTy.bits .f32 = 32 ∨ (Rect.block (s := S503808x1) S4096x1.size (cc0_transform_13 i) (hinb0_13 i)).WholeWords (EltTy.packing .f32)

variable [Facts₀]

def gather_S1000000_S500000x1_S500000_n_0_n_n_0_1_1 : GatherDims S1000000 S500000x1 S500000 where
  offsetDims := []
  collapsedSliceDims := [0]
  operandBatchingDims := []
  startIndicesBatchingDims := []
  startIndexMap := [0]
  indexVectorDim := 1
  sliceSizes := ![1]
  wf := gather_S1000000_S500000x1_S500000_n_0_n_n_0_1_1_wf
def gather_S1000000x100_S500000x1_S500000x100_1_0_n_n_0_1_1100 : GatherDims S1000000x100 S500000x1 S500000x100 where
  offsetDims := [1]
  collapsedSliceDims := [0]
  operandBatchingDims := []
  startIndicesBatchingDims := []
  startIndexMap := [0]
  indexVectorDim := 1
  sliceSizes := ![1, 100]
  wf := gather_S1000000x100_S500000x1_S500000x100_1_0_n_n_0_1_1100_wf
def dot_S4096x100_S100x128_S4096x128_1_0_0_1_n_n : DotDims S4096x100 S100x128 S4096x128 where
  lhsContracting := [1]
  rhsContracting := [0]
  lhsNonContracting := [0]
  rhsNonContracting := [1]
  lhsBatch := []
  rhsBatch := []
  wf := dot_S4096x100_S100x128_S4096x128_1_0_0_1_n_n_wf
def dot_S4096x172_S172x128_S4096x128_1_0_0_1_n_n : DotDims S4096x172 S172x128 S4096x128 where
  lhsContracting := [1]
  rhsContracting := [0]
  lhsNonContracting := [0]
  rhsNonContracting := [1]
  lhsBatch := []
  rhsBatch := []
  wf := dot_S4096x172_S172x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_v23) S4096x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S4096x172.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S100x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S100x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S100x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S172x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v38) S4096x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S500000 : Shape := ⟨1, ![500000]⟩
abbrev S500000x172 : Shape := ⟨2, ![500000, 172]⟩
abbrev S1000000x100 : Shape := ⟨2, ![1000000, 100]⟩
abbrev S1000000 : Shape := ⟨1, ![1000000]⟩
abbrev S100 : Shape := ⟨1, ![100]⟩
abbrev S472x128 : Shape := ⟨2, ![472, 128]⟩
abbrev S128 : Shape := ⟨1, ![128]⟩
abbrev S128x1 : Shape := ⟨2, ![128, 1]⟩
abbrev S1 : Shape := ⟨1, ![1]⟩
abbrev S_ : Shape := ⟨0, ![]⟩
abbrev S500000x1 : Shape := ⟨2, ![500000, 1]⟩
abbrev S500000x100 : Shape := ⟨2, ![500000, 100]⟩
abbrev S1x100 : Shape := ⟨2, ![1, 100]⟩
abbrev S500000x472 : Shape := ⟨2, ![500000, 472]⟩
abbrev S500000x128 : Shape := ⟨2, ![500000, 128]⟩
abbrev S1x128 : Shape := ⟨2, ![1, 128]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .f32⟩
  | .hbm, ⟨3, _⟩ => ⟨S500000x172, .f32⟩
  | .hbm, ⟨4, _⟩ => ⟨S1000000x100, .f32⟩
  | .hbm, ⟨5, _⟩ => ⟨S1000000, .f32⟩
  | .hbm, ⟨6, _⟩ => ⟨S100, .f32⟩
  | .hbm, ⟨7, _⟩ => ⟨S100, .f32⟩
  | .hbm, ⟨8, _⟩ => ⟨S472x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x100, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x100, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000, .f32⟩
  | .hbm, ⟨39, _⟩ => ⟨S500000, .f32⟩
  | .hbm, ⟨40, _⟩ => ⟨S500000x1, .f32⟩
  | .hbm, ⟨41, _⟩ => ⟨S1x100, .f32⟩
  | .hbm, ⟨42, _⟩ => ⟨S500000x100, .f32⟩
  | .hbm, ⟨43, _⟩ => ⟨S500000x100, .f32⟩
  | .hbm, ⟨44, _⟩ => ⟨S500000x100, .f32⟩
  | .hbm, ⟨45, _⟩ => ⟨S1x100, .f32⟩
  | .hbm, ⟨46, _⟩ => ⟨S500000x100, .f32⟩
  | .hbm, ⟨47, _⟩ => ⟨S500000x100, .f32⟩
  | .hbm, ⟨48, _⟩ => ⟨S500000x100, .f32⟩
  | .hbm, ⟨49, _⟩ => ⟨S500000x472, .f32⟩
  | .hbm, ⟨50, _⟩ => ⟨S500000x128, .f32⟩
  | .hbm, ⟨51, _⟩ => ⟨S1x128, .f32⟩
  | .hbm, ⟨52, _⟩ => ⟨S500000x128, .f32⟩
  | .hbm, ⟨53, _⟩ => ⟨S500000x128, .f32⟩
  | .hbm, ⟨54, _⟩ => ⟨S_, .f32⟩
  | .hbm, ⟨55, _⟩ => ⟨S500000x128, .f32⟩
  | .hbm, ⟨56, _⟩ => ⟨S500000x128, .f32⟩
  | .hbm, ⟨57, _⟩ => ⟨S500000x1, .f32⟩
  | .hbm, ⟨58, _⟩ => ⟨S1x1, .f32⟩
  | .hbm, ⟨59, _⟩ => ⟨S500000x1, .f32⟩
  | .hbm, ⟨60, _⟩ => ⟨S500000x1, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S100_S1x100_1 : S100.BroadcastsInDim S1x100 (![1] : Fin 1 → Fin S1x100.rank)
  bcast_S500000x1_S500000x100_0_1 : S500000x1.BroadcastsInDim S500000x100 (![0, 1] : Fin 2 → Fin S500000x100.rank)
  bcast_S1x100_S500000x100_0_1 : S1x100.BroadcastsInDim S500000x100 (![0, 1] : Fin 2 → Fin S500000x100.rank)
  concatenates_S500000x100_S500000x100_S500000x100_S500000x172_S500000x472_d1 : Shape.Concatenates [S500000x100, S500000x100, S500000x100, S500000x172] S500000x472 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S1000000x100_S500000x1_S500000x100_1_0_n_n_0_1_1100_wf : GatherDims.WF S1000000x100 S500000x1 S500000x100 [1] [0] [] [0] [] 1 ![1, 100]
  gather_S1000000_S500000x1_S500000_n_0_n_n_0_1_1_wf : GatherDims.WF S1000000 S500000x1 S500000 [] [0] [] [0] [] 1 ![1]
  dot_S500000x472_S472x128_S500000x128_1_0_0_1_n_n_wf : DotDims.WF S500000x472 S472x128 S500000x128 [1] [0] [0] [1] [] []
  dot_S500000x128_S128x1_S500000x1_1_0_0_1_n_n_wf : DotDims.WF S500000x128 S128x1 S500000x1 [1] [0] [0] [1] [] []

variable [Facts₀]

def gather_S1000000x100_S500000x1_S500000x100_1_0_n_n_0_1_1100 : GatherDims S1000000x100 S500000x1 S500000x100 where
  offsetDims := [1]
  collapsedSliceDims := [0]
  operandBatchingDims := []
  startIndicesBatchingDims := []
  startIndexMap := [0]
  indexVectorDim := 1
  sliceSizes := ![1, 100]
  wf := gather_S1000000x100_S500000x1_S500000x100_1_0_n_n_0_1_1100_wf
def gather_S1000000_S500000x1_S500000_n_0_n_n_0_1_1 : GatherDims S1000000 S500000x1 S500000 where
  offsetDims := []
  collapsedSliceDims := [0]
  operandBatchingDims := []
  startIndicesBatchingDims := []
  startIndexMap := [0]
  indexVectorDim := 1
  sliceSizes := ![1]
  wf := gather_S1000000_S500000x1_S500000_n_0_n_n_0_1_1_wf
def dot_S500000x472_S472x128_S500000x128_1_0_0_1_n_n : DotDims S500000x472 S472x128 S500000x128 where
  lhsContracting := [1]
  rhsContracting := [0]
  lhsNonContracting := [0]
  rhsNonContracting := [1]
  lhsBatch := []
  rhsBatch := []
  wf := dot_S500000x472_S472x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Score.lean ====
/-
  The score of one edge, as a function of that edge's data and of the weights.

  An edge carries two rows of node state `a`, `b` (100 entries each), a time gap `δ` and 172 attributes `ε`. The
  time gap is encoded as `cos (δ · ω k + β k)` for 100 frequencies; the four groups of features are multiplied
  into 128 hidden units, each group by its own rows of the first weight matrix, a bias is added, the result is
  clipped below at zero, and the hidden units are combined linearly into one number plus a bias.

  Computing the hidden units group by group, or in one product of the 472 joined features with the whole weight
  matrix, gives the same sums: a sum over 472 indices is the sum of its four stretches `[0,100)`, `[100,200)`,
  `[200,300)`, `[300,472)`. That needs only that addition of extended reals is associative and commutative.
-/
import Idealize.ShloMosaic.PureOps.Ideal
import Mathlib.Algebra.BigOperators.Fin

noncomputable section

namespace Cert.EdgeScore

open Idealize.ShloMosaic

/-- The word of the float zero, as an extended real; both programs clip against this same word. -/
abbrev zeroWord : EReal := Ideal.ofBits .f32 0x00000000#32

/-- Hidden unit `j` before clipping: the four groups' contributions, added in this grouping, plus the bias. -/
def hidden (a b : Fin 100 → EReal) (δ : EReal) (ε : Fin 172 → EReal) (ω β : Fin 100 → EReal)
    (Wa Wb Wc : Fin 100 → Fin 128 → EReal) (Wd : Fin 172 → Fin 128 → EReal) (b₁ : Fin 128 → EReal) (j : Fin 128) : EReal :=
  ((((∑ k : Fin 100, a k * Wa k j) + (∑ k : Fin 100, b k * Wb k j))
      + (∑ k : Fin 100, Ideal.cos (δ * ω k + β k) * Wc k j))
      + (∑ k : Fin 172, ε k * Wd k j)) + b₁ j

/-- The edge's score: the clipped hidden units combined by `w₂`, plus `b₂`. -/
def score (a b : Fin 100 → EReal) (δ : EReal) (ε : Fin 172 → EReal) (ω β : Fin 100 → EReal)
    (Wa Wb Wc : Fin 100 → Fin 128 → EReal) (Wd : Fin 172 → Fin 128 → EReal) (b₁ : Fin 128 → EReal)
    (w₂ : Fin 128 → EReal) (b₂ : EReal) : EReal :=
  (∑ j : Fin 128, max (hidden a b δ ε ω β Wa Wb Wc Wd b₁ j) zeroWord * w₂ j) + b₂

/-- A sum over 472 indices is the sum of its stretches `[0,100)`, `[100,200)`, `[200,300)`, `[300,472)`. -/
theorem sum_four_stretches (f : Fin 472 → EReal) :
    ∑ k : Fin 472, f k
      = (((∑ k : Fin 100, f ⟨k.val, by omega⟩) + (∑ k : Fin 100, f ⟨100 + k.val, by omega⟩))
          + (∑ k : Fin 100, f ⟨200 + k.val, by omega⟩)) + (∑ k : Fin 172, f ⟨300 + k.val, by omega⟩) := by
  have h1 := Fin.sum_univ_add (a := 300) (b := 172) f
  have h2 := Fin.sum_univ_add (a := 200) (b := 100) (fun k : Fin 300 => f (Fin.castAdd 172 k))
  have h3 := Fin.sum_univ_add (a := 100) (b := 100)
    (fun k : Fin 200 => f (Fin.castAdd 172 (Fin.castAdd 100 k)))
  rw [h1, h2, h3]
  rfl

end Cert.EdgeScore

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.BodyAt.lean ====
/-
  The kernel body's result at one row of a block.

  A block holds 4096 edges. Row `p` of the output block depends only on row `p` of the three row-blocked inputs
  (two blocks of node state, one of attributes), entry `p` of the block of time gaps, and the resident weights:
  it is the edge score of that row's data. The four matrix products are read entry by entry as sums over the
  contracted coordinate; the time gap, kept as a column and spread along 100 lanes, meets the frequencies and
  phases, each a single row spread down the 4096 rows; the bias rows likewise.
-/
import proofs.«111211_j6648609374720_2_alg».proof.Proof.Gen.KernelIdeal.Frame
import proofs.«111211_j6648609374720_2_alg».proof.Proof.Score
import proofs.«111211_j6648609374720_2_alg».proof.Proof.LibKeepdims
import proofs.«111211_j6648609374720_2_alg».proof.Proof.LibMatProduct
import Idealize.ShloMosaic.Lib.ValueLayout
import Idealize.ShloMosaic.Lib.ValueIdx
import Idealize.ShloMosaic.Lib.Pipeline.Value

noncomputable section

namespace Cert.KernelIdeal.BodyAt

open Cert.KernelIdeal Cert.KernelIdeal.Gen Idealize.ShloMosaic Idealize.ShloMosaic.ValueIdx Cert.EdgeScore
open Cert.LibKeepdims Cert.LibMatProduct

/-- The cosine of a vector, read at an index, is the cosine of the entry. -/
theorem cos_at {s : Shape} {φ : FTy} (v : FVec Ideal s φ) (i : s.Idx) : cos v i = Ideal.cos (v i) := rfl

/-- A matrix product into a zero accumulator, in the spelling the body is printed in, at entry `(r, c)`. -/
theorem matmul_at {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    matmul d prec lhs rhs (constant ⟨2, ![m, n]⟩ .f32 0x00000000#32) (ix2 r c)
      = ∑ h : Fin k, lhs (ix2 r h) * rhs (ix2 h c) :=
  matmul_zero_apply d prec hlc hrc hln hrn hlb hrb lhs rhs r c

/-- The time encoding at `(p, k)`: the gap of row `p` times frequency `k` plus phase `k`, under the cosine. -/
theorem encoding_at (v0 : Vec Ideal S4096 .f32) (v3 v8 : Vec Ideal S1x100 .f32) (p : Fin 4096) (k : Fin 100) :
    cos (F := Ideal) (s := S4096x100) (φ := .f32)
        (addf (mulf (broadcastTo S4096x100 (shapeCast S4096x1 v0 shapeCasts_S4096_S4096x1) broadcasts_S4096x1_S4096x100)
        (broadcastTo S4096x100 v3 broadcasts_S1x100_S4096x100))
        (broadcastTo S4096x100 v8 broadcasts_S1x100_S4096x100)) (ix2 p k)
      = Ideal.cos (v0 (ix1 p) * v3 (ix2 (0 : Fin 1) k) + v8 (ix2 (0 : Fin 1) k)) := by
  rw [cos_at, addf_apply, mulf_apply, broadcastTo_a1_ab_apply, shapeCast_a_a1_apply,
    broadcastTo_1b_ab_apply, broadcastTo_1b_ab_apply]

/-- The four groups' contributions to hidden unit `j` of row `p`, before the bias. -/
theorem groups_at (v0 : Vec Ideal S4096 .f32) (v3 v8 : Vec Ideal S1x100 .f32) (v13 : Vec Ideal S4096x100 .f32)
    (v15 : Vec Ideal S100x128 .f32) (v18 : Vec Ideal S4096x100 .f32) (v20 v24 : Vec Ideal S100x128 .f32)
    (v28 : Vec Ideal S4096x172 .f32) (v30 : Vec Ideal S172x128 .f32) (p : Fin 4096) (j : Fin 128) :
    k0_pay2 (F := Ideal) v0 v3 v8 v13 v15 v18 v20 v24 v28 v30 (ix2 p j)
      = (((∑ k : Fin 100, v13 (ix2 p k) * v15 (ix2 k j)) + (∑ k : Fin 100, v18 (ix2 p k) * v20 (ix2 k j)))
          + (∑ k : Fin 100, Ideal.cos (v0 (ix1 p) * v3 (ix2 (0 : Fin 1) k) + v8 (ix2 (0 : Fin 1) k)) * v24 (ix2 k j)))
          + (∑ k : Fin 172, v28 (ix2 p k) * v30 (ix2 k j)) := by
  unfold k0_pay2
  simp only [shapeCast_self]
  rw [addf_apply, addf_apply, addf_apply,
    matmul_at dot_S4096x100_S100x128_S4096x128_1_0_0_1_n_n none rfl rfl rfl rfl rfl rfl v13 v15 p j,
    matmul_at dot_S4096x100_S100x128_S4096x128_1_0_0_1_n_n none rfl rfl rfl rfl rfl rfl v18 v20 p j,
    matmul_at dot_S4096x100_S100x128_S4096x128_1_0_0_1_n_n none rfl rfl rfl rfl rfl rfl _ v24 p j,
    matmul_at dot_S4096x172_S172x128_S4096x128_1_0_0_1_n_n none rfl rfl rfl rfl rfl rfl v28 v30 p j]
  simp only [encoding_at]

/-- Row `p` of the body's output block: the edge score of row `p`'s data under the resident weights. -/
theorem row_at (v33 : FVec Ideal S4096x128 .f32) (v34 : Vec Ideal S1x128 .f32) (v40 : Vec Ideal S128x1 .f32)
    (v42 : Vec Ideal S1x1 .f32) (p : Fin 4096) :
    k0_pay1 (F := Ideal) v33 v34 v40 v42 (ix2 p (0 : Fin 1))
      = (∑ j : Fin 128, max (v33 (ix2 p j) + v34 (ix2 (0 : Fin 1) j)) zeroWord * v40 (ix2 j (0 : Fin 1)))
          + v42 (ix2 (0 : Fin 1) (0 : Fin 1)) := by
  unfold k0_pay1
  simp only [shapeCast_self]
  rw [addf_apply,
    matmul_at dot_S4096x128_S128x1_S4096x1_1_0_0_1_n_n none rfl rfl rfl rfl rfl rfl _ v40 p (0 : Fin 1),
    broadcastTo_1b_ab_apply]
  simp only [maximumf_apply, addf_apply, broadcastTo_1b_ab_apply, broadcast_apply, scalar_ofBits]

theorem hz2 : (![0, 0] : Fin 2 → Nat) = fun _ => 0 := funext fun a => by fin_cases a <;> rfl
theorem hz1 : (![0] : Fin 1 → Nat) = fun _ => 0 := funext fun a => by fin_cases a; rfl

/-- The output block after the body, at row `p`: the edge score of row `p` of the input blocks. -/
theorem block_row (x0 x1 : Vec Ideal S4096x100 .f32) (x2 : Vec Ideal S4096 .f32) (x3 : Vec Ideal S4096x172 .f32)
    (x4 x5 : Vec Ideal S1x100 .f32) (x6 x7 x8 : Vec Ideal S100x128 .f32) (x9 : Vec Ideal S172x128 .f32)
    (x10 : Vec Ideal S1x128 .f32) (x11 : Vec Ideal S128x1 .f32) (x12 : Vec Ideal S1x1 .f32) (p : Fin 4096) :
    out0_13 (F := Ideal) x0 x1 x2 x3 x4 x5 x6 x7 x8 x9 x10 x11 x12 (ix2 p (0 : Fin 1))
      = score (fun k => x0 (ix2 p k)) (fun k => x1 (ix2 p k)) (x2 (ix1 p)) (fun k => x3 (ix2 p k))
          (fun k => x4 (ix2 (0 : Fin 1) k)) (fun k => x5 (ix2 (0 : Fin 1) k))
          (fun k j => x6 (ix2 k j)) (fun k j => x7 (ix2 k j)) (fun k j => x8 (ix2 k j)) (fun k j => x9 (ix2 k j))
          (fun j => x10 (ix2 (0 : Fin 1) j)) (fun j => x11 (ix2 j (0 : Fin 1))) (x12 (ix2 (0 : Fin 1) (0 : Fin 1))) := by
  unfold out0_13
  rw [View.canon_unit_zero hz2]
  simp only [View.ld_unit_zero (S := S4096) hz1, View.ld_unit_zero (S := S1x100) hz2,
    View.ld_unit_zero (S := S4096x100) hz2, View.ld_unit_zero (S := S100x128) hz2,
    View.ld_unit_zero (S := S4096x172) hz2, View.ld_unit_zero (S := S172x128) hz2,
    View.ld_unit_zero (S := S1x128) hz2, View.ld_unit_zero (S := S128x1) hz2, View.ld_unit_zero (S := S1x1) hz2]
  rw [row_at]
  simp only [groups_at]
  rfl

end Cert.KernelIdeal.BodyAt

end
-- ==== Proof.Blocks.lean ====
/-
  From blocks to the whole output array.

  The grid has 123 points; point `t` works on rows `[4096·t, 4096·t + 4096)` of the four row-blocked inputs (two
  arrays of node state, the time gaps, the attributes) and writes the same rows of the one-column output, while
  the weights, frequencies, phases and biases are the same whole array at every point. So what point `t` writes
  back is rows `[4096·t, 4096·t + 4096)` of ONE function of the arrays as the region finds them — row `r` of it
  is the edge score of row `r` — and since 123 · 4096 = 503808 the blocks cover the output array, which therefore
  ends holding that function.
-/
import proofs.«111211_j6648609374720_2_alg».proof.Proof.BodyAt

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.EdgeScore Cert.KernelIdeal.BodyAt
open Idealize.ShloMosaic.Pipeline (Dat Cfg Window)

variable (m : (ℓ : Loc nD τ sig) → Buf (Elt Ideal) ℓ)

/-- The score of row `r` of the padded arrays (503808 rows) under the weights as the region finds them. -/
def rowScore (A B : S503808x100.Idx → EReal) (D : S503808.Idx → EReal) (E : S503808x172.Idx → EReal)
    (ω β : S1x100.Idx → EReal) (Wa Wb Wc : S100x128.Idx → EReal) (Wd : S172x128.Idx → EReal)
    (b₁ : S1x128.Idx → EReal) (w₂ : S128x1.Idx → EReal) (b₂ : S1x1.Idx → EReal) (r : Fin 503808) : EReal :=
  score (fun k => A (ix2 r k)) (fun k => B (ix2 r k)) (D (ix1 r)) (fun k => E (ix2 r k))
    (fun k => ω (ix2 (0 : Fin 1) k)) (fun k => β (ix2 (0 : Fin 1) k))
    (fun k j => Wa (ix2 k j)) (fun k j => Wb (ix2 k j)) (fun k j => Wc (ix2 k j)) (fun k j => Wd (ix2 k j))
    (fun j => b₁ (ix2 (0 : Fin 1) j)) (fun j => w₂ (ix2 j (0 : Fin 1))) (b₂ (ix2 (0 : Fin 1) (0 : Fin 1)))

/-- The padded output column: entry `(r, 0)` is the score of row `r`. -/
def padded (A B : S503808x100.Idx → EReal) (D : S503808.Idx → EReal) (E : S503808x172.Idx → EReal)
    (ω β : S1x100.Idx → EReal) (Wa Wb Wc : S100x128.Idx → EReal) (Wd : S172x128.Idx → EReal)
    (b₁ : S1x128.Idx → EReal) (w₂ : S128x1.Idx → EReal) (b₂ : S1x1.Idx → EReal) : S503808x1.Idx → EReal :=
  fun i => rowScore A B D E ω β Wa Wb Wc Wd b₁ w₂ b₂ (i 0)

/-! ## Where each window's block sits, decided over the 123 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 1) = t.val :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

theorem lt_rows (t : Fin cfg0.N) (p : Fin 4096) : t.val * 4096 + p.val < 503808 := by
  have ht : t.val < 123 := lt_of_lt_of_eq t.isLt (N_0 : cfg0.N = 123)
  have := p.isLt; omega

/-! ## Each input window's block at a point, read at coordinates -/

/-- Block `t` of the first node-state array: rows `4096·t + p`. -/
theorem read0 (c : Dev nD) (t : Fin cfg0.N) (p : Fin 4096) (k : Fin 100) :
    iblk m c 0 t (ix2 p k) = V m c main_v23 (ix2 (⟨t.val * 4096 + p.val, lt_rows t p⟩ : Fin 503808) k) := by
  show V m c main_v23 (((cfg0.win 0).blk t).view.emb (ix2 p k)) = _
  refine congrArg _ (funext fun a => Fin.ext ?_)
  match a with
  | ⟨0, _⟩ => show win0_0.index t (0 : Fin 2) * 4096 + 1 * p.val = t.val * 4096 + p.val; rw [(idx0 t).1]; omega
  | ⟨1, _⟩ => show win0_0.index t (1 : Fin 2) * 100 + 1 * k.val = k.val; rw [(idx0 t).2]; omega

/-- Block `t` of the second node-state array. -/
theorem read1 (c : Dev nD) (t : Fin cfg0.N) (p : Fin 4096) (k : Fin 100) :
    iblk m c 1 t (ix2 p k) = V m c main_v25 (ix2 (⟨t.val * 4096 + p.val, lt_rows t p⟩ : Fin 503808) k) := by
  show V m c main_v25 (((cfg0.win 1).blk t).view.emb (ix2 p k)) = _
  refine congrArg _ (funext fun a => Fin.ext ?_)
  match a with
  | ⟨0, _⟩ => show win0_1.index t (0 : Fin 2) * 4096 + 1 * p.val = t.val * 4096 + p.val; rw [(idx1 t).1]; omega
  | ⟨1, _⟩ => show win0_1.index t (1 : Fin 2) * 100 + 1 * k.val = k.val; rw [(idx1 t).2]; omega

/-- Block `t` of the time gaps: entries `4096·t + p`. -/
theorem read2 (c : Dev nD) (t : Fin cfg0.N) (p : Fin 4096) :
    iblk m c 2 t (ix1 p) = V m c main_v27 (ix1 (⟨t.val * 4096 + p.val, lt_rows t p⟩ : Fin 503808)) := by
  show V m c main_v27 (((cfg0.win 2).blk t).view.emb (ix1 p)) = _
  refine congrArg _ (funext fun a => Fin.ext ?_)
  match a with
  | ⟨0, _⟩ => show win0_2.index t (0 : Fin 1) * 4096 + 1 * p.val = t.val * 4096 + p.val; rw [idx2 t]; omega

/-- Block `t` of the attributes. -/
theorem read3 (c : Dev nD) (t : Fin cfg0.N) (p : Fin 4096) (k : Fin 172) :
    iblk m c 3 t (ix2 p k) = V m c main_v29 (ix2 (⟨t.val * 4096 + p.val, lt_rows t p⟩ : Fin 503808) k) := by
  show V m c main_v29 (((cfg0.win 3).blk t).view.emb (ix2 p k)) = _
  refine congrArg _ (funext fun a => Fin.ext ?_)
  match a with
  | ⟨0, _⟩ => show win0_3.index t (0 : Fin 2) * 4096 + 1 * p.val = t.val * 4096 + p.val; rw [(idx3 t).1]; omega
  | ⟨1, _⟩ => show win0_3.index t (1 : Fin 2) * 172 + 1 * k.val = k.val; rw [(idx3 t).2]; omega

/-! The resident operands: the same whole array at every point. -/

theorem read4 (c : Dev nD) (t : Fin cfg0.N) (a : Fin 1) (b : Fin 100) :
    iblk m c 4 t (ix2 a b) = V m c main_v34 (ix2 a b) := by
  show V m c main_v34 (((cfg0.win 4).blk t).view.emb (ix2 a b)) = _
  refine congrArg _ (funext fun x => Fin.ext ?_)
  match x with
  | ⟨0, _⟩ => show win0_4.index t (0 : Fin 2) * 1 + 1 * a.val = a.val; rw [(idx4 t).1]; omega
  | ⟨1, _⟩ => show win0_4.index t (1 : Fin 2) * 100 + 1 * b.val = b.val; rw [(idx4 t).2]; omega

theorem read5 (c : Dev nD) (t : Fin cfg0.N) (a : Fin 1) (b : Fin 100) :
    iblk m c 5 t (ix2 a b) = V m c main_v35 (ix2 a b) := by
  show V m c main_v35 (((cfg0.win 5).blk t).view.emb (ix2 a b)) = _
  refine congrArg _ (funext fun x => Fin.ext ?_)
  match x with
  | ⟨0, _⟩ => show win0_5.index t (0 : Fin 2) * 1 + 1 * a.val = a.val; rw [(idx5 t).1]; omega
  | ⟨1, _⟩ => show win0_5.index t (1 : Fin 2) * 100 + 1 * b.val = b.val; rw [(idx5 t).2]; omega

theorem read6 (c : Dev nD) (t : Fin cfg0.N) (a : Fin 100) (b : Fin 128) :
    iblk m c 6 t (ix2 a b) = V m c main_v30 (ix2 a b) := by
  show V m c main_v30 (((cfg0.win 6).blk t).view.emb (ix2 a b)) = _
  refine congrArg _ (funext fun x => Fin.ext ?_)
  match x with
  | ⟨0, _⟩ => show win0_6.index t (0 : Fin 2) * 100 + 1 * a.val = a.val; rw [(idx6 t).1]; omega
  | ⟨1, _⟩ => show win0_6.index t (1 : Fin 2) * 128 + 1 * b.val = b.val; rw [(idx6 t).2]; omega

theorem read7 (c : Dev nD) (t : Fin cfg0.N) (a : Fin 100) (b : Fin 128) :
    iblk m c 7 t (ix2 a b) = V m c main_v31 (ix2 a b) := by
  show V m c main_v31 (((cfg0.win 7).blk t).view.emb (ix2 a b)) = _
  refine congrArg _ (funext fun x => Fin.ext ?_)
  match x with
  | ⟨0, _⟩ => show win0_7.index t (0 : Fin 2) * 100 + 1 * a.val = a.val; rw [(idx7 t).1]; omega
  | ⟨1, _⟩ => show win0_7.index t (1 : Fin 2) * 128 + 1 * b.val = b.val; rw [(idx7 t).2]; omega

theorem read8 (c : Dev nD) (t : Fin cfg0.N) (a : Fin 100) (b : Fin 128) :
    iblk m c 8 t (ix2 a b) = V m c main_v32 (ix2 a b) := by
  show V m c main_v32 (((cfg0.win 8).blk t).view.emb (ix2 a b)) = _
  refine congrArg _ (funext fun x => Fin.ext ?_)
  match x with
  | ⟨0, _⟩ => show win0_8.index t (0 : Fin 2) * 100 + 1 * a.val = a.val; rw [(idx8 t).1]; omega
  | ⟨1, _⟩ => show win0_8.index t (1 : Fin 2) * 128 + 1 * b.val = b.val; rw [(idx8 t).2]; omega

theorem read9 (c : Dev nD) (t : Fin cfg0.N) (a : Fin 172) (b : Fin 128) :
    iblk m c 9 t (ix2 a b) = V m c main_v33 (ix2 a b) := by
  show V m c main_v33 (((cfg0.win 9).blk t).view.emb (ix2 a b)) = _
  refine congrArg _ (funext fun x => Fin.ext ?_)
  match x with
  | ⟨0, _⟩ => show win0_9.index t (0 : Fin 2) * 172 + 1 * a.val = a.val; rw [(idx9 t).1]; omega
  | ⟨1, _⟩ => show win0_9.index t (1 : Fin 2) * 128 + 1 * b.val = b.val; rw [(idx9 t).2]; omega

theorem read10 (c : Dev nD) (t : Fin cfg0.N) (a : Fin 1) (b : Fin 128) :
    iblk m c 10 t (ix2 a b) = V m c main_v36 (ix2 a b) := by
  show V m c main_v36 (((cfg0.win 10).blk t).view.emb (ix2 a b)) = _
  refine congrArg _ (funext fun x => Fin.ext ?_)
  match x with
  | ⟨0, _⟩ => show win0_10.index t (0 : Fin 2) * 1 + 1 * a.val = a.val; rw [(idx10 t).1]; omega
  | ⟨1, _⟩ => show win0_10.index t (1 : Fin 2) * 128 + 1 * b.val = b.val; rw [(idx10 t).2]; omega

theorem read11 (c : Dev nD) (t : Fin cfg0.N) (a : Fin 128) (b : Fin 1) :
    iblk m c 11 t (ix2 a b) = V m c main_arg10 (ix2 a b) := by
  show V m c main_arg10 (((cfg0.win 11).blk t).view.emb (ix2 a b)) = _
  refine congrArg _ (funext fun x => Fin.ext ?_)
  match x with
  | ⟨0, _⟩ => show win0_11.index t (0 : Fin 2) * 128 + 1 * a.val = a.val; rw [(idx11 t).1]; omega
  | ⟨1, _⟩ => show win0_11.index t (1 : Fin 2) * 1 + 1 * b.val = b.val; rw [(idx11 t).2]; omega

theorem read12 (c : Dev nD) (t : Fin cfg0.N) (a : Fin 1) (b : Fin 1) :
    iblk m c 12 t (ix2 a b) = V m c main_v37 (ix2 a b) := by
  show V m c main_v37 (((cfg0.win 12).blk t).view.emb (ix2 a b)) = _
  refine congrArg _ (funext fun x => Fin.ext ?_)
  match x with
  | ⟨0, _⟩ => show win0_12.index t (0 : Fin 2) * 1 + 1 * a.val = a.val; rw [(idx12 t).1]; omega
  | ⟨1, _⟩ => show win0_12.index t (1 : Fin 2) * 1 + 1 * b.val = b.val; rw [(idx12 t).2]; omega

/-! ## What a point writes back, the cover, the final array -/

/-- The output array as the region leaves it where covered: the padded score column of the arrays as found. -/
abbrev found (c : Dev nD) : S503808x1.Idx → EReal :=
  padded (V m c main_v23) (V m c main_v25) (V m c main_v27) (V m c main_v29) (V m c main_v34) (V m c main_v35)
    (V m c main_v30) (V m c main_v31) (V m c main_v32) (V m c main_v33) (V m c main_v36) (V m c main_arg10) (V m c main_v37)

/-- Point `t` writes back rows `[4096·t, 4096·t + 4096)` of the padded score column. -/
theorem flushed_eq (c : Dev nD) (t : Fin cfg0.N) :
    (dats m 0 c).flushed 13 t = ((cfg0.win 13).blk t).view.read (Elt Ideal) (found m c) := by
  show (cfg0.win 13).cut (grid0.coords t) ((dats m 0 c).after 13 t) = _
  rw [after0_13]
  funext j
  obtain ⟨p, q, rfl⟩ : ∃ (p : Fin 4096) (q : Fin 1), j = ix2 p q := ⟨j 0, j 1, eq_ix2 j⟩
  obtain rfl : q = 0 := Subsingleton.elim _ _
  show out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 p (0 : Fin 1))
    = found m c (((cfg0.win 13).blk t).view.emb (ix2 p (0 : Fin 1)))
  refine (block_row (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) p).trans ?_
  have he : (((cfg0.win 13).blk t).view.emb (ix2 p (0 : Fin 1))) 0 = (⟨t.val * 4096 + p.val, lt_rows t p⟩ : Fin 503808) := by
    apply Fin.ext
    show win0_13.index t (0 : Fin 2) * 4096 + 1 * p.val = t.val * 4096 + p.val
    rw [(idx13 t).1]; omega
  show _ = rowScore _ _ _ _ _ _ _ _ _ _ _ _ _ ((((cfg0.win 13).blk t).view.emb (ix2 p (0 : Fin 1))) 0)
  rw [he]
  unfold rowScore
  simp only [read0, read1, read2, read3, read4, read5, read6, read7, read8, read9, read10, read11, read12]

/-- An index of the output array is in point `t`'s block iff each coordinate is in the block's range on its axis. -/
theorem mem_blk (t : Fin cfg0.N) (i : S503808x1.Idx) :
    i ∈ ((cfg0.win 13).blk t).view.set ↔ ∀ a : Fin 2, win0_13.index t a * S4096x1.size a ≤ (i a).val
      ∧ (i a).val < win0_13.index t a * S4096x1.size a + S4096x1.size a := by
  show i ∈ ((View.whole main_v38).slice (win0_13.rect t)).set ↔ _
  rw [View.set_slice_whole, Rect.mem_set_unit]
  exact Iff.rfl

/-- Row `r` of the output array lies in the block of point `r / 4096`; there are 123 · 4096 = 503808 rows. -/
theorem cover (i : S503808x1.Idx) :
    ∃ t : Fin cfg0.N, (cfg0.win 13).flush t = true ∧ i ∈ ((cfg0.win 13).blk t).view.set := by
  have hi0 : (i 0).val < 503808 := (i 0).isLt
  have hi1 : (i 1).val < 1 := (i 1).isLt
  have hN : cfg0.N = 123 := N_0
  let t : Fin cfg0.N := ⟨(i 0).val / 4096, by rw [hN]; omega⟩
  have ht : t.val = (i 0).val / 4096 := rfl
  refine ⟨t, flush0_13 t, ?_⟩
  rw [mem_blk]
  intro a
  match a with
  | ⟨0, _⟩ =>
    show win0_13.index t (0 : Fin 2) * 4096 ≤ (i 0).val ∧ (i 0).val < win0_13.index t (0 : Fin 2) * 4096 + 4096
    rw [(idx13 t).1, ht]; omega
  | ⟨1, _⟩ =>
    show win0_13.index t (1 : Fin 2) * 1 ≤ (i 1).val ∧ (i 1).val < win0_13.index t (1 : Fin 2) * 1 + 1
    rw [(idx13 t).2]; omega

/-- The output array after the region: the padded score column of the arrays as the region finds them. -/
theorem final (c : Dev nD) : (dats m 0 c).arrAt 13 cfg0.N = found m c :=
  (dats m 0 c).arrAt_eq_of_cover 13 (found m c) (fun t _ => flushed_eq m c t) cover

end Cert.KernelIdeal.Blocks

end
-- ==== Proof.Spec.lean ====
/-
  The result both programs compute: one score per edge, as a one-column array of 500000 rows.

  Row `e` is the edge score of: row `e` of the two gathered node-state arrays `A`, `B`; the time gap `δ e`; row `e`
  of the attributes; the 100 frequencies and phases; the first weight matrix cut at rows 100, 200 and 300 into
  the four groups' parts; the hidden bias; the output weights and bias.
-/
import proofs.«111211_j6648609374720_2_alg».proof.Proof.Score
import Idealize.ShloMosaic.Lib.ValueIdx

noncomputable section

namespace Cert.EdgeScore

open Idealize.ShloMosaic Idealize.ShloMosaic.ValueIdx

/-- The score of edge `e`. -/
def edgeRow (A B : (⟨2, ![500000, 100]⟩ : Shape).Idx → EReal) (δ : (⟨1, ![500000]⟩ : Shape).Idx → EReal)
    (E : (⟨2, ![500000, 172]⟩ : Shape).Idx → EReal) (ω β : (⟨1, ![100]⟩ : Shape).Idx → EReal)
    (W : (⟨2, ![472, 128]⟩ : Shape).Idx → EReal) (b₁ : (⟨1, ![128]⟩ : Shape).Idx → EReal)
    (w₂ : (⟨2, ![128, 1]⟩ : Shape).Idx → EReal) (b₂ : (⟨1, ![1]⟩ : Shape).Idx → EReal) (e : Fin 500000) : EReal :=
  score (fun k => A (ix2 e k)) (fun k => B (ix2 e k)) (δ (ix1 e)) (fun k => E (ix2 e k))
    (fun k => ω (ix1 k)) (fun k => β (ix1 k))
    (fun k j => W (ix2 (⟨k.val, by omega⟩ : Fin 472) j)) (fun k j => W (ix2 (⟨100 + k.val, by omega⟩ : Fin 472) j))
    (fun k j => W (ix2 (⟨200 + k.val, by omega⟩ : Fin 472) j)) (fun k j => W (ix2 (⟨300 + k.val, by omega⟩ : Fin 472) j))
    (fun j => b₁ (ix1 j)) (fun j => w₂ (ix2 j (0 : Fin 1))) (b₂ (ix1 (0 : Fin 1)))

/-- All edges' scores: entry `(e, 0)` is the score of edge `e`. -/
def edgeScores (A B : (⟨2, ![500000, 100]⟩ : Shape).Idx → EReal) (δ : (⟨1, ![500000]⟩ : Shape).Idx → EReal)
    (E : (⟨2, ![500000, 172]⟩ : Shape).Idx → EReal) (ω β : (⟨1, ![100]⟩ : Shape).Idx → EReal)
    (W : (⟨2, ![472, 128]⟩ : Shape).Idx → EReal) (b₁ : (⟨1, ![128]⟩ : Shape).Idx → EReal)
    (w₂ : (⟨2, ![128, 1]⟩ : Shape).Idx → EReal) (b₂ : (⟨1, ![1]⟩ : Shape).Idx → EReal) :
    (⟨2, ![500000, 1]⟩ : Shape).Idx → EReal :=
  fun i => edgeRow A B δ E ω β W b₁ w₂ b₂ (i 0)

end Cert.EdgeScore

end
-- ==== Proof.LibPadRows.lean ====
/-
  Rows of an array padded at the end of its leading axis.

  `jnp.concatenate([x, pad], axis = 0)` of a matrix `x : [a, n]` and a pad `[p, n]` into `[t, n]` (a kernel's
  wrapper padding the row count up to a multiple of its block) reads, at a row `e < a`, row `e` of `x` — whatever
  the pad holds. Likewise for a vector `[a]` padded to `[t]`.
-/
import Idealize.ShloMosaic.Lib.ValueIdx
import Idealize.ShloMosaic.Lib.Pipeline.Value

noncomputable section

namespace Cert.LibPadRows

open Idealize.ShloMosaic Idealize.ShloMosaic.ValueIdx

variable {α : Type}

/-- Row `e < a` of a matrix `[a, n]` padded below to `[t, n]` is row `e` of the matrix. -/
theorem padRows2_apply {a p t n : ℕ} (X : (⟨2, ![a, n]⟩ : Shape).Idx → α) (Z : (⟨2, ![p, n]⟩ : Shape).Idx → α)
    (h : Shape.Concatenates [⟨2, ![a, n]⟩, ⟨2, ![p, n]⟩] ⟨2, ![t, n]⟩ 0)
    (e : Fin a) (he : e.val < t) (k : Fin n) :
    concatenate ⟨2, ![t, n]⟩ 0 [⟨⟨2, ![a, n]⟩, X⟩, ⟨⟨2, ![p, n]⟩, Z⟩] h (ix2 (⟨e.val, he⟩ : Fin t) k) = X (ix2 e k) :=
  concatenate_pair_apply_left 0 X Z h _ rfl (ix2 e k) (fun b => match b with | ⟨0, _⟩ => rfl | ⟨1, _⟩ => rfl)

/-- Entry `e < a` of a vector `[a]` padded to `[t]` is entry `e` of the vector. -/
theorem padRows1_apply {a p t : ℕ} (X : (⟨1, ![a]⟩ : Shape).Idx → α) (Z : (⟨1, ![p]⟩ : Shape).Idx → α)
    (h : Shape.Concatenates [⟨1, ![a]⟩, ⟨1, ![p]⟩] ⟨1, ![t]⟩ 0) (e : Fin a) (he : e.val < t) :
    concatenate ⟨1, ![t]⟩ 0 [⟨⟨1, ![a]⟩, X⟩, ⟨⟨1, ![p]⟩, Z⟩] h (ix1 (⟨e.val, he⟩ : Fin t)) = X (ix1 e) :=
  concatenate_pair_apply_left 0 X Z h _ rfl (ix1 e) (fun b => match b with | ⟨0, _⟩ => rfl)

end Cert.LibPadRows

end
-- ==== Proof.KernelHost.lean ====
/-
  The host operations around the region.

  Before the region the program gathers the node-state rows the two index vectors name (a negative index counting
  from the end), subtracts the gathered last-update times from the edge times, pads the four row-blocked operands
  with 3808 zero rows to 123 · 4096 = 503808 rows, cuts the first weight matrix at rows 100, 200, 300 and recasts
  the four vectors as one-row matrices. After the region it keeps the first 500000 rows of the output column.

  A row below 500000 of a padded array is the row of the array that was padded; row `k` of a cut piece is row
  `offset + k` of the weight matrix; a vector recast as one row is itself. So the rows the program keeps are the
  edge scores of the gathered data.
-/
import proofs.«111211_j6648609374720_2_alg».proof.Proof.Blocks
import proofs.«111211_j6648609374720_2_alg».proof.Proof.Spec
import proofs.«111211_j6648609374720_2_alg».proof.Proof.LibPadRows
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo Cert.EdgeScore Cert.KernelIdeal.Blocks Cert.LibPadRows

variable (m : (ℓ : Loc nD τ sig) → Buf (Elt Ideal) ℓ)

/-- The start indices of a gather: each index, with a negative one counted from the end, as a one-entry row. -/
def wrapIdx (x : (⟨S500000, .i32⟩ : BufTy).Contents (Elt Ideal)) : (⟨S500000x1, .i32⟩ : BufTy).Contents (Elt Ideal) :=
  broadcastInDim S500000x1 ![0] bcast_S500000_S500000x1_0
    (select (cmpi .slt x (broadcastInDim S500000 ![] bcast_S_S500000 (constantI S_ 32 0#32)))
      (addi x (broadcastInDim S500000 ![] bcast_S_S500000 (constantI S_ 32 1000000#32))) x)

/-- The node-state rows the indices name. -/
def nodeRows (x : (⟨S500000, .i32⟩ : BufTy).Contents (Elt Ideal)) (mem : (⟨S1000000x100, .f32⟩ : BufTy).Contents (Elt Ideal)) :
    (⟨S500000x100, .f32⟩ : BufTy).Contents (Elt Ideal) :=
  Host.gather gather_S1000000x100_S500000x1_S500000x100_1_0_n_n_0_1_1100 mem (wrapIdx x)

/-- The time gaps: each edge's time less its source node's last update. -/
def gaps (x : (⟨S500000, .i32⟩ : BufTy).Contents (Elt Ideal)) (t : (⟨S500000, .f32⟩ : BufTy).Contents (Elt Ideal))
    (upd : (⟨S1000000, .f32⟩ : BufTy).Contents (Elt Ideal)) : (⟨S500000, .f32⟩ : BufTy).Contents (Elt Ideal) :=
  subf (F := Ideal) (s := S500000) (φ := .f32) t (Host.gather gather_S1000000_S500000x1_S500000_n_0_n_n_0_1_1 upd (wrapIdx x))

/-! ## The arrays as the region finds them -/

set_option maxHeartbeats 2000000 in
theorem V_v23 (c : Dev nD) : V m c main_v23
    = concatenate S503808x100 0 [⟨S500000x100, nodeRows (m ((c : Thread nD τ).loc main_arg0)) (m ((c : Thread nD τ).loc main_arg4))⟩,
        ⟨S3808x100, broadcastInDim S3808x100 ![] bcast_S_S3808x100 (constant (F := Ideal) S_ .f32 0x00000000#32)⟩]
        concatenates_S500000x100_S3808x100_S503808x100_d0 := by
  show StableHlo.after hostOps0 (fun b => m (c, b)) (Proc.devRef .tc main_v23) = _
  after_results_simp <;> rfl

set_option maxHeartbeats 2000000 in
theorem V_v25 (c : Dev nD) : V m c main_v25
    = concatenate S503808x100 0 [⟨S500000x100, nodeRows (m ((c : Thread nD τ).loc main_arg1)) (m ((c : Thread nD τ).loc main_arg4))⟩,
        ⟨S3808x100, broadcastInDim S3808x100 ![] bcast_S_S3808x100 (constant (F := Ideal) S_ .f32 0x00000000#32)⟩]
        concatenates_S500000x100_S3808x100_S503808x100_d0 := by
  show StableHlo.after hostOps0 (fun b => m (c, b)) (Proc.devRef .tc main_v25) = _
  after_results_simp <;> rfl

set_option maxHeartbeats 2000000 in
theorem V_v27 (c : Dev nD) : V m c main_v27
    = concatenate S503808 0 [⟨S500000, gaps (m ((c : Thread nD τ).loc main_arg0)) (m ((c : Thread nD τ).loc main_arg2)) (m ((c : Thread nD τ).loc main_arg5))⟩,
        ⟨S3808, broadcastInDim S3808 ![] bcast_S_S3808 (constant (F := Ideal) S_ .f32 0x00000000#32)⟩]
        concatenates_S500000_S3808_S503808_d0 := by
  show StableHlo.after hostOps0 (fun b => m (c, b)) (Proc.devRef .tc main_v27) = _
  after_results_simp <;> rfl

set_option maxHeartbeats 2000000 in
theorem V_v29 (c : Dev nD) : V m c main_v29
    = concatenate S503808x172 0 [⟨S500000x172, m ((c : Thread nD τ).loc main_arg3)⟩,
        ⟨S3808x172, broadcastInDim S3808x172 ![] bcast_S_S3808x172 (constant (F := Ideal) S_ .f32 0x00000000#32)⟩]
        concatenates_S500000x172_S3808x172_S503808x172_d0 := by
  show StableHlo.after hostOps0 (fun b => m (c, b)) (Proc.devRef .tc main_v29) = _
  after_results_simp <;> rfl

set_option maxHeartbeats 2000000 in
theorem V_v30 (c : Dev nD) : V m c main_v30
    = extractStridedSlice S100x128 ![0, 0] (m ((c : Thread nD τ).loc main_arg8)) slices_S472x128_S100x128_0_0 := by
  show StableHlo.after hostOps0 (fun b => m (c, b)) (Proc.devRef .tc main_v30) = _
  after_results_simp <;> rfl

set_option maxHeartbeats 2000000 in
theorem V_v31 (c : Dev nD) : V m c main_v31
    = extractStridedSlice S100x128 ![100, 0] (m ((c : Thread nD τ).loc main_arg8)) slices_S472x128_S100x128_100_0 := by
  show StableHlo.after hostOps0 (fun b => m (c, b)) (Proc.devRef .tc main_v31) = _
  after_results_simp <;> rfl

set_option maxHeartbeats 2000000 in
theorem V_v32 (c : Dev nD) : V m c main_v32
    = extractStridedSlice S100x128 ![200, 0] (m ((c : Thread nD τ).loc main_arg8)) slices_S472x128_S100x128_200_0 := by
  show StableHlo.after hostOps0 (fun b => m (c, b)) (Proc.devRef .tc main_v32) = _
  after_results_simp <;> rfl

set_option maxHeartbeats 2000000 in
theorem V_v33 (c : Dev nD) : V m c main_v33
    = extractStridedSlice S172x128 ![300, 0] (m ((c : Thread nD τ).loc main_arg8)) slices_S472x128_S172x128_300_0 := by
  show StableHlo.after hostOps0 (fun b => m (c, b)) (Proc.devRef .tc main_v33) = _
  after_results_simp <;> rfl

set_option maxHeartbeats 2000000 in
theorem V_v34 (c : Dev nD) : V m c main_v34 = shapeCast S1x100 (m ((c : Thread nD τ).loc main_arg6)) shapeCasts_S100_S1x100 := by
  show StableHlo.after hostOps0 (fun b => m (c, b)) (Proc.devRef .tc main_v34) = _
  after_results_simp <;> rfl

set_option maxHeartbeats 2000000 in
theorem V_v35 (c : Dev nD) : V m c main_v35 = shapeCast S1x100 (m ((c : Thread nD τ).loc main_arg7)) shapeCasts_S100_S1x100 := by
  show StableHlo.after hostOps0 (fun b => m (c, b)) (Proc.devRef .tc main_v35) = _
  after_results_simp <;> rfl

set_option maxHeartbeats 2000000 in
theorem V_v36 (c : Dev nD) : V m c main_v36 = shapeCast S1x128 (m ((c : Thread nD τ).loc main_arg9)) shapeCasts_S128_S1x128 := by
  show StableHlo.after hostOps0 (fun b => m (c, b)) (Proc.devRef .tc main_v36) = _
  after_results_simp <;> rfl

set_option maxHeartbeats 2000000 in
theorem V_v37 (c : Dev nD) : V m c main_v37 = shapeCast S1x1 (m ((c : Thread nD τ).loc main_arg11)) shapeCasts_S1_S1x1 := by
  show StableHlo.after hostOps0 (fun b => m (c, b)) (Proc.devRef .tc main_v37) = _
  after_results_simp <;> rfl

/-! ## After the region -/

/-- What the program returns: the first 500000 rows of the region's output column. -/
theorem tail_eq (c : Dev nD) : Pipeline.afterTail₀ cfgs (dats m) 0 (V0 m) [hostOps1] c main_v39
    = extractStridedSlice S500000x1 ![0, 0] (found m c) slices_S503808x1_S500000x1_0_0 := by
  unfold Pipeline.afterTail₀
  show StableHlo.after hostOps1 _ (Proc.devRef .tc main_v39) = _
  after_results
  have h1 := Pipeline.withArrays_arr spec0 launch0.win.arr_inj c (V0 m c) (fun w => (dats m 0 c).arrAt w (cfgs 0).N) 13
  exact congrArg (fun X => extractStridedSlice S500000x1 ![0, 0] X slices_S503808x1_S500000x1_0_0) (h1.trans (final m c))

/-! ## Rows below 500000 of the padded arrays, rows of the cut weights, recast vectors -/

/-- The kept rows are the edge scores of the gathered data. -/
theorem kept_rows (c : Dev nD) :
    extractStridedSlice S500000x1 ![0, 0] (found m c) slices_S503808x1_S500000x1_0_0
      = edgeScores (nodeRows (m ((c : Thread nD τ).loc main_arg0)) (m ((c : Thread nD τ).loc main_arg4)))
          (nodeRows (m ((c : Thread nD τ).loc main_arg1)) (m ((c : Thread nD τ).loc main_arg4)))
          (gaps (m ((c : Thread nD τ).loc main_arg0)) (m ((c : Thread nD τ).loc main_arg2)) (m ((c : Thread nD τ).loc main_arg5)))
          (m ((c : Thread nD τ).loc main_arg3)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) := by
  funext i
  obtain ⟨e, u, rfl⟩ : ∃ (e : Fin 500000) (u : Fin 1), i = ix2 e u := ⟨i 0, i 1, eq_ix2 i⟩
  obtain rfl : u = 0 := Subsingleton.elim _ _
  have he : e.val < 503808 := by have := e.isLt; omega
  rw [slice2_axis0_apply 0 (found m c) slices_S503808x1_S500000x1_0_0 e (0 : Fin 1) (⟨e.val, he⟩ : Fin 503808)
    (Nat.zero_add _).symm]
  show rowScore (V m c main_v23) (V m c main_v25) (V m c main_v27) (V m c main_v29) (V m c main_v34) (V m c main_v35)
      (V m c main_v30) (V m c main_v31) (V m c main_v32) (V m c main_v33) (V m c main_v36) (V m c main_arg10) (V m c main_v37)
      (⟨e.val, he⟩ : Fin 503808) = edgeRow _ _ _ _ _ _ _ _ _ _ e
  unfold rowScore edgeRow
  rw [V_v23, V_v25, V_v27, V_v29, V_v30, V_v31, V_v32, V_v33, V_v34, V_v35, V_v36, V_v37, V_main_arg10]
  have cutA : ∀ (k : Fin 100) (j : Fin 128),
      extractStridedSlice S100x128 ![0, 0] (m ((c : Thread nD τ).loc main_arg8)) slices_S472x128_S100x128_0_0 (ix2 k j)
        = m ((c : Thread nD τ).loc main_arg8) (ix2 (⟨k.val, by omega⟩ : Fin 472) j) :=
    fun k j => slice2_axis0_apply 0 _ _ k j _ (Nat.zero_add _).symm
  have cutB : ∀ (k : Fin 100) (j : Fin 128),
      extractStridedSlice S100x128 ![100, 0] (m ((c : Thread nD τ).loc main_arg8)) slices_S472x128_S100x128_100_0 (ix2 k j)
        = m ((c : Thread nD τ).loc main_arg8) (ix2 (⟨100 + k.val, by omega⟩ : Fin 472) j) :=
    fun k j => slice2_axis0_apply 100 _ _ k j _ rfl
  have cutC : ∀ (k : Fin 100) (j : Fin 128),
      extractStridedSlice S100x128 ![200, 0] (m ((c : Thread nD τ).loc main_arg8)) slices_S472x128_S100x128_200_0 (ix2 k j)
        = m ((c : Thread nD τ).loc main_arg8) (ix2 (⟨200 + k.val, by omega⟩ : Fin 472) j) :=
    fun k j => slice2_axis0_apply 200 _ _ k j _ rfl
  have cutD : ∀ (k : Fin 172) (j : Fin 128),
      extractStridedSlice S172x128 ![300, 0] (m ((c : Thread nD τ).loc main_arg8)) slices_S472x128_S172x128_300_0 (ix2 k j)
        = m ((c : Thread nD τ).loc main_arg8) (ix2 (⟨300 + k.val, by omega⟩ : Fin 472) j) :=
    fun k j => slice2_axis0_apply 300 _ _ k j _ rfl
  have padE : ∀ k : Fin 172,
      concatenate S503808x172 0 [⟨S500000x172, m ((c : Thread nD τ).loc main_arg3)⟩,
          ⟨S3808x172, broadcastInDim S3808x172 ![] bcast_S_S3808x172 (constant (F := Ideal) S_ .f32 0x00000000#32)⟩]
          concatenates_S500000x172_S3808x172_S503808x172_d0 (ix2 (⟨e.val, he⟩ : Fin 503808) k)
        = m ((c : Thread nD τ).loc main_arg3) (ix2 e k) :=
    fun k => padRows2_apply (n := 172) _ _ _ e he k
  simp only [padRows2_apply, padRows1_apply, padE, shapeCast_a_1a_apply, cutA, cutB, cutC, cutD]

/-- What the program returns, in one equation: the edge scores of the gathered data. -/
theorem result_eq (c : Dev nD) : Pipeline.afterTail₀ cfgs (dats m) 0 (V0 m) [hostOps1] c main_v39
    = edgeScores (nodeRows (m ((c : Thread nD τ).loc main_arg0)) (m ((c : Thread nD τ).loc main_arg4)))
        (nodeRows (m ((c : Thread nD τ).loc main_arg1)) (m ((c : Thread nD τ).loc main_arg4)))
        (gaps (m ((c : Thread nD τ).loc main_arg0)) (m ((c : Thread nD τ).loc main_arg2)) (m ((c : Thread nD τ).loc main_arg5)))
        (m ((c : Thread nD τ).loc main_arg3)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) :=
  (tail_eq m c).trans (kept_rows m c)

end Cert.KernelIdeal.HostSide

end
-- ==== Proof.KernelRun.lean ====
/-
  The idealized kernel's run, with its result named.

  Every weakly fair execution terminates without fault; the returned array holds the edge scores of the gathered
  data, and the twelve argument arrays end as they began (eleven are never written by any host operation or staged
  for writing; the output weights are staged as an input window and never written back).
-/
import proofs.«111211_j6648609374720_2_alg».proof.Proof.KernelHost

set_option maxRecDepth 16384

noncomputable section

namespace Cert.KernelIdeal.RunValue

open Cert.KernelIdeal Cert.KernelIdeal.Gen Idealize.ShloMosaic Idealize.ShloMosaic.TcCoe
open Idealize.SL.Sem Cert.EdgeScore Cert.KernelIdeal.HostSide

variable (m : (ℓ : Loc nD τ sig) → Buf (Elt Ideal) ℓ) (ρ : Dev nD → PrngReg)

/-- The array the kernel returns on core `c`, as a function of the argument arrays. -/
def result (c : Dev nD) : (⟨2, ![500000, 1]⟩ : Shape).Idx → EReal :=
  edgeScores (nodeRows (m ((c : Thread nD τ).loc main_arg0)) (m ((c : Thread nD τ).loc main_arg4))) (nodeRows (m ((c : Thread nD τ).loc main_arg1)) (m ((c : Thread nD τ).loc main_arg4)))
    (gaps (m ((c : Thread nD τ).loc main_arg0)) (m ((c : Thread nD τ).loc main_arg2)) (m ((c : Thread nD τ).loc main_arg5)))
    (m ((c : Thread nD τ).loc main_arg3)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11))

theorem run : θ_run defs (onTc (τ := τ) (main (F := Ideal))) ⟨m, fun _ => 0, ρ⟩ (fun r => ∀ c : Dev nD,
      r.2.mem ((c.tc : Thread nD τ).loc main_v39) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_v39 (Pipeline.mem_restRefs_of main_v39 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 11).trans (((dats m 0 c).arrAt_in 11 rfl _).trans ((A_eq m c 11).trans (V_main_arg10 m c))),
      ((h c).2 main_arg11 (Pipeline.mem_restRefs_of main_arg11 (by decide) (by decide))).trans (W_main_arg11 m (dats m) c)⟩)
    (run_main m ρ)

end Cert.KernelIdeal.RunValue

end
-- ==== Proof.RefScore.lean ====
/-
  The reference's result, row by row.

  The reference joins, for every edge, the two gathered rows of node state, the time encoding and the attributes
  into one row of 472 features, multiplies by the whole first weight matrix, adds the bias, clips at zero, and
  combines the hidden units. Feature `k` of the joined row is entry `k`, `k - 100`, `k - 200` or `k - 300` of the
  piece whose stretch holds `k`; so the sum over the 472 features is the sum of the four groups' sums, and the
  reference's row is the edge score of the same data.
-/
import proofs.«111211_j6648609374720_2_alg».proof.Proof.Gen.ReferenceIdeal.Read
import proofs.«111211_j6648609374720_2_alg».proof.Proof.Spec
import Idealize.ShloMosaic.Lib.Pipeline.Value

set_option maxRecDepth 16384

noncomputable section

namespace Cert.ReferenceIdeal.RefScore

open Cert.ReferenceIdeal Cert.ReferenceIdeal.Gen Cert.ReferenceIdeal.Read Idealize.ShloMosaic Idealize.ShloMosaic.ValueIdx
open Cert.EdgeScore

variable (x0 x1 : (⟨S500000, .i32⟩ : BufTy).Contents (Elt Ideal)) (x2 : (⟨S500000, .f32⟩ : BufTy).Contents (Elt Ideal))
    (x3 : (⟨S500000x172, .f32⟩ : BufTy).Contents (Elt Ideal)) (x4 : (⟨S1000000x100, .f32⟩ : BufTy).Contents (Elt Ideal))
    (x5 : (⟨S1000000, .f32⟩ : BufTy).Contents (Elt Ideal)) (x6 x7 : (⟨S100, .f32⟩ : BufTy).Contents (Elt Ideal))

/-! ## The joined row, stretch by stretch -/

theorem joined_a (e : Fin 500000) (k : Fin 100) :
    val_main_v31 (F := Ideal) x0 x1 x2 x3 x4 x5 x6 x7 (ix2 e (⟨k.val, by omega⟩ : Fin 472))
      = val_main_v6 (F := Ideal) x0 x4 (ix2 e k) := by
  unfold val_main_v31
  refine concatenate_apply_piece (t := S500000x472) (1 : Fin 2) _ _ _ 0 ?_ S500000x100 _ ?_ rfl 0 ?_ (ix2 e k) ?_ ?_
  · simp
  · rfl
  · rfl
  · exact fun b => match b with | ⟨0, _⟩ => fun _ => rfl | ⟨1, _⟩ => fun h => absurd rfl h
  · exact (Nat.zero_add _)

theorem joined_b (e : Fin 500000) (k : Fin 100) :
    val_main_v31 (F := Ideal) x0 x1 x2 x3 x4 x5 x6 x7 (ix2 e (⟨100 + k.val, by omega⟩ : Fin 472))
      = val_main_v13 (F := Ideal) x1 x4 (ix2 e k) := by
  unfold val_main_v31
  refine concatenate_apply_piece (t := S500000x472) (1 : Fin 2) _ _ _ 1 ?_ S500000x100 _ ?_ rfl 100 ?_ (ix2 e k) ?_ ?_
  · simp
  · rfl
  · rfl
  · exact fun b => match b with | ⟨0, _⟩ => fun _ => rfl | ⟨1, _⟩ => fun h => absurd rfl h
  · exact rfl

theorem joined_c (e : Fin 500000) (k : Fin 100) :
    val_main_v31 (F := Ideal) x0 x1 x2 x3 x4 x5 x6 x7 (ix2 e (⟨200 + k.val, by omega⟩ : Fin 472))
      = val_main_v30 (F := Ideal) x0 x2 x5 x6 x7 (ix2 e k) := by
  unfold val_main_v31
  refine concatenate_apply_piece (t := S500000x472) (1 : Fin 2) _ _ _ 2 ?_ S500000x100 _ ?_ rfl 200 ?_ (ix2 e k) ?_ ?_
  · simp
  · rfl
  · rfl
  · exact fun b => match b with | ⟨0, _⟩ => fun _ => rfl | ⟨1, _⟩ => fun h => absurd rfl h
  · exact rfl

theorem joined_d (e : Fin 500000) (k : Fin 172) :
    val_main_v31 (F := Ideal) x0 x1 x2 x3 x4 x5 x6 x7 (ix2 e (⟨300 + k.val, by omega⟩ : Fin 472))
      = x3 (ix2 e k) := by
  unfold val_main_v31
  refine concatenate_apply_piece (t := S500000x472) (1 : Fin 2) _ _ _ 3 ?_ S500000x172 _ ?_ rfl 300 ?_ (ix2 e k) ?_ ?_
  · simp
  · rfl
  · rfl
  · exact fun b => match b with | ⟨0, _⟩ => fun _ => rfl | ⟨1, _⟩ => fun h => absurd rfl h
  · exact rfl

/-- The time encoding at `(e, k)`. -/
theorem encoding_at (e : Fin 500000) (k : Fin 100) :
    val_main_v30 (F := Ideal) x0 x2 x5 x6 x7 (ix2 e k)
      = Ideal.cos (val_main_v21 (F := Ideal) x0 x2 x5 (ix1 e) * x6 (ix1 k) + x7 (ix1 k)) := by
  have h1 : idx_main_v22 (idx_main_v24 (ix2 e k)) = ix1 e := funext fun a => Fin.ext (by match a with | ⟨0, _⟩ => rfl)
  have h2 : idx_main_v23 (idx_main_v25 (ix2 e k)) = ix1 k := funext fun a => Fin.ext (by match a with | ⟨0, _⟩ => rfl)
  have h3 : idx_main_v27 (idx_main_v28 (ix2 e k)) = ix1 k := funext fun a => Fin.ext (by match a with | ⟨0, _⟩ => rfl)
  rw [val_main_v30_apply, val_main_v29_apply, val_main_v26_apply, val_main_v24_apply, val_main_v22_apply,
    val_main_v25_apply, val_main_v23_apply, val_main_v28_apply, val_main_v27_apply, h1, h2, h3]
  rfl

variable (x8 : (⟨S472x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal))

/-- Hidden unit `j` of edge `e` before clipping: the product of the joined row with column `j` of the weights,
    split into its four stretches, plus the bias. -/
theorem hidden_at (e : Fin 500000) (j : Fin 128) :
    val_main_v35 (F := Ideal) x0 x1 x2 x3 x4 x5 x6 x7 x8 x9 (ix2 e j)
      = hidden (fun k => val_main_v6 (F := Ideal) x0 x4 (ix2 e k)) (fun k => val_main_v13 (F := Ideal) x1 x4 (ix2 e k))
          (val_main_v21 (F := Ideal) x0 x2 x5 (ix1 e)) (fun k => x3 (ix2 e k)) (fun k => x6 (ix1 k)) (fun k => x7 (ix1 k))
          (fun k j => x8 (ix2 (⟨k.val, by omega⟩ : Fin 472) j)) (fun k j => x8 (ix2 (⟨100 + k.val, by omega⟩ : Fin 472) j))
          (fun k j => x8 (ix2 (⟨200 + k.val, by omega⟩ : Fin 472) j)) (fun k j => x8 (ix2 (⟨300 + k.val, by omega⟩ : Fin 472) j))
          (fun j => x9 (ix1 j)) j := by
  have hl : ∀ k : Fin 472, lidx_main_v32 (ix2 e j) k = ix2 e k :=
    fun k => funext fun a => Fin.ext (by match a with | ⟨0, _⟩ => rfl | ⟨1, _⟩ => rfl)
  have hr : ∀ k : Fin 472, ridx_main_v32 (ix2 e j) k = ix2 k j :=
    fun k => funext fun a => Fin.ext (by match a with | ⟨0, _⟩ => rfl | ⟨1, _⟩ => rfl)
  have hb : idx_main_v33 (idx_main_v34 (ix2 e j)) = ix1 j := funext fun a => Fin.ext (by match a with | ⟨0, _⟩ => rfl)
  rw [val_main_v35_apply, val_main_v32_apply, val_main_v34_apply, val_main_v33_apply, hb]
  simp only [hl, hr]
  rw [sum_four_stretches]
  simp only [joined_a, joined_b, joined_c, joined_d, encoding_at]
  rfl

/-- The reference's result at edge `e`: the edge score of the gathered data. -/
theorem ref_row (e : Fin 500000) :
    val_main_v40 (F := Ideal) x0 x1 x2 x3 x4 x5 x6 x7 x8 x9 x10 x11 (ix2 e (0 : Fin 1))
      = edgeRow (val_main_v6 (F := Ideal) x0 x4) (val_main_v13 (F := Ideal) x1 x4) (val_main_v21 (F := Ideal) x0 x2 x5)
          x3 x6 x7 x8 x9 x10 x11 e := by
  have hl : ∀ k : Fin 128, lidx_main_v37 (ix2 e (0 : Fin 1)) k = ix2 e k :=
    fun k => funext fun a => Fin.ext (by match a with | ⟨0, _⟩ => rfl | ⟨1, _⟩ => rfl)
  have hr : ∀ k : Fin 128, ridx_main_v37 (ix2 e (0 : Fin 1)) k = ix2 k (0 : Fin 1) :=
    fun k => funext fun a => Fin.ext (by match a with | ⟨0, _⟩ => rfl | ⟨1, _⟩ => rfl)
  have hb : idx_main_v38 (idx_main_v39 (ix2 e (0 : Fin 1))) = ix1 (0 : Fin 1) :=
    funext fun a => Fin.ext (by match a with | ⟨0, _⟩ => rfl)
  rw [val_main_v40_apply, val_main_v37_apply, val_main_v39_apply, val_main_v38_apply, hb]
  simp only [hl, hr, val_main_v36_apply, hidden_at]
  rfl

/-- The reference's result is the array of edge scores of the gathered data. -/
theorem ref_eq :
    val_main_v40 (F := Ideal) x0 x1 x2 x3 x4 x5 x6 x7 x8 x9 x10 x11
      = edgeScores (val_main_v6 (F := Ideal) x0 x4) (val_main_v13 (F := Ideal) x1 x4) (val_main_v21 (F := Ideal) x0 x2 x5)
          x3 x6 x7 x8 x9 x10 x11 := by
  funext i
  obtain ⟨e, u, rfl⟩ : ∃ (e : Fin 500000) (u : Fin 1), i = ix2 e u := ⟨i 0, i 1, eq_ix2 i⟩
  obtain rfl : u = 0 := Subsingleton.elim _ _
  exact ref_row x0 x1 x2 x3 x4 x5 x6 x7 x8 x9 x10 x11 e

end Cert.ReferenceIdeal.RefScore

end
-- ==== Proof.lean ====
/-
  Edge scores of a temporal graph network: for each of 500000 edges, two rows of node state gathered by the edge's
  endpoints, a cosine encoding of the time since the source node's last update, and the edge's attributes feed a
  two-layer perceptron with 128 hidden units clipped at zero; the result is one number per edge.

  The kernel gathers on the host, pads the edges to 123 blocks of 4096, and in each block adds four matrix
  products — node state, node state, time encoding, attributes, each with its own rows of the first weight matrix —
  before the bias; the reference joins the four groups into rows of 472 features and multiplies once by the whole
  matrix. On the extended reals both are the same sums: a sum over 472 indices is the sum of its stretches
  `[0,100)`, `[100,200)`, `[200,300)`, `[300,472)`, by associativity and commutativity of addition alone, so no
  finiteness of the inputs is used. The padded rows are cut off again after the region, and a row below 500000 of
  a padded array is the row of the array that was padded.

  Modules: Score (the score of one edge and the four-stretch law), Spec (the array of all scores), BodyAt (a row
  of the kernel body's block), Blocks (from blocks to the whole output array), KernelHost (the host operations
  before and after the region), KernelRun (the kernel's run with its result named), RefScore (the reference's
  result row by row).
-/
import proofs.«111211_j6648609374720_2_alg».proof.Defs
import proofs.«111211_j6648609374720_2_alg».proof.Proof.Gen.Kernel
import proofs.«111211_j6648609374720_2_alg».proof.Proof.Gen.Kernel.Skeleton
import proofs.«111211_j6648609374720_2_alg».proof.Proof.Gen.Kernel.Launch
import proofs.«111211_j6648609374720_2_alg».proof.Proof.Gen.Kernel.Points
import proofs.«111211_j6648609374720_2_alg».proof.Proof.Gen.Kernel.Frame
import proofs.«111211_j6648609374720_2_alg».proof.Proof.Gen.KernelIdeal
import proofs.«111211_j6648609374720_2_alg».proof.Proof.Gen.KernelIdeal.Skeleton
import proofs.«111211_j6648609374720_2_alg».proof.Proof.Gen.KernelIdeal.Launch
import proofs.«111211_j6648609374720_2_alg».proof.Proof.Gen.KernelIdeal.Points
import proofs.«111211_j6648609374720_2_alg».proof.Proof.Gen.KernelIdeal.Frame
import proofs.«111211_j6648609374720_2_alg».proof.Proof.Gen.ReferenceIdeal
import proofs.«111211_j6648609374720_2_alg».proof.Proof.Gen.ReferenceIdeal.Run
import proofs.«111211_j6648609374720_2_alg».proof.Proof.Gen.ReferenceIdeal.Read
import proofs.«111211_j6648609374720_2_alg».proof.Proof.Gen.Pre_finite_inputs
import proofs.«111211_j6648609374720_2_alg».proof.Proof.KernelRun
import proofs.«111211_j6648609374720_2_alg».proof.Proof.RefScore
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates, faults nowhere and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the twelve arguments both programs end with the array of edge scores of the same
    gathered data: the kernel by blocks of 4096 rows, four partial products per hidden unit; the reference by one
    product over the 472 joined features. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  show Cert.ReferenceIdeal.Read.val_main_v40 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
  rw [Cert.ReferenceIdeal.RefScore.ref_eq, h0, h1, h2, h3, h4, h5, h6, h7, h8, h9, h10, h11]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
